-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96x96 .f32) (main_arg6 : FVec F S96 .f32) (main_arg7 : FVec F S96x96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S96x96 .f32) (main_arg3 : FVec F S96 .f32) (main_arg4 : FVec F S96x96 .f32) (main_arg5 : FVec F S96x96 .f32) (main_arg6 : FVec F S96 .f32) (main_arg7 : FVec F S96x96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x96 : Shape := ⟨2, ![1, 96]⟩
abbrev S5000x96 : Shape := ⟨2, ![5000, 96]⟩

abbrev nBuf : Space → Nat
  | .hbm => 66
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S1x96, .f32⟩
  | .hbm, ⟨38, _⟩ => ⟨S50000x96, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x96, .f32⟩
  | .hbm, ⟨48, _⟩ => ⟨S_, .f32⟩
  | .hbm, ⟨49, _⟩ => ⟨S50000x96, .f32⟩
  | .hbm, ⟨50, _⟩ => ⟨S800000x1, .i32⟩
  | .hbm, ⟨51, _⟩ => ⟨S50000x96, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x96, .f32⟩
  | .hbm, ⟨63, _⟩ => ⟨S50000x96, .f32⟩
  | .hbm, ⟨64, _⟩ => ⟨S1x96, .f32⟩
  | .hbm, ⟨65, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S1x96, .f32⟩
  | .local _ .vmem, ⟨6, _⟩ => ⟨S96x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S96x96, .f32⟩
  | .local _ .vmem, ⟨14, _⟩ => ⟨S1x96, .f32⟩
  | .local _ .vmem, ⟨15, _⟩ => ⟨S96x96, .f32⟩
  | .local _ .vmem, ⟨16, _⟩ => ⟨S5000x96, .f32⟩
  | .local _ .vmem, ⟨17, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S5000x96_S96x96_S5000x96_1_1_0_0_n_n_wf : DotDims.WF S5000x96 S96x96 S5000x96 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x96_S96x96_S5000x96_1_1_0_0_n_n : DotDims S5000x96 S96x96 S5000x96 where
  lhsContracting := [1]
  rhsContracting := [1]
  lhsNonContracting := [0]
  rhsNonContracting := [0]
  lhsBatch := []
  rhsBatch := []
  wf := dot_S5000x96_S96x96_S5000x96_1_1_0_0_n_n_wf

abbrev win0_0 : Pipeline.Window sig grid0 :=
  Pipeline.Window.ofSpec (Memref.whole main_v22) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x96 : Shape := ⟨2, ![1, 96]⟩

abbrev nBuf : Space → Nat
  | .hbm => 81
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S96x96, .f32⟩
  | .hbm, ⟨38, _⟩ => ⟨S50000x96, .f32⟩
  | .hbm, ⟨39, _⟩ => ⟨S1x96, .f32⟩
  | .hbm, ⟨40, _⟩ => ⟨S50000x96, .f32⟩
  | .hbm, ⟨41, _⟩ => ⟨S50000x96, .f32⟩
  | .hbm, ⟨42, _⟩ => ⟨S96x96, .f32⟩
  | .hbm, ⟨43, _⟩ => ⟨S50000x96, .f32⟩
  | .hbm, ⟨44, _⟩ => ⟨S50000x96, .f32⟩
  | .hbm, ⟨45, _⟩ => ⟨S_, .f32⟩
  | .hbm, ⟨46, _⟩ => ⟨S50000x96, .f32⟩
  | .hbm, ⟨47, _⟩ => ⟨S50000x96, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x96, .f32⟩
  | .hbm, ⟨57, _⟩ => ⟨S_, .f32⟩
  | .hbm, ⟨58, _⟩ => ⟨S50000x96, .f32⟩
  | .hbm, ⟨59, _⟩ => ⟨S800000x1, .i32⟩
  | .hbm, ⟨60, _⟩ => ⟨S50000x96, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x96, .f32⟩
  | .hbm, ⟨72, _⟩ => ⟨S50000x96, .f32⟩
  | .hbm, ⟨73, _⟩ => ⟨S96x96, .f32⟩
  | .hbm, ⟨74, _⟩ => ⟨S50000x96, .f32⟩
  | .hbm, ⟨75, _⟩ => ⟨S1x96, .f32⟩
  | .hbm, ⟨76, _⟩ => ⟨S50000x96, .f32⟩
  | .hbm, ⟨77, _⟩ => ⟨S50000x96, .f32⟩
  | .hbm, ⟨78, _⟩ => ⟨S96x96, .f32⟩
  | .hbm, ⟨79, _⟩ => ⟨S50000x96, .f32⟩
  | .hbm, ⟨80, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.KernelRun.lean ====
/-
  The kernel program's run, with its result named.

  The program is four segments: the host operations that average the node features, the first launch, the host
  operations that average its output, the second launch. Every weakly fair execution runs them in order and ends.
  Between segments the state of a core is "every buffer the program uses holds the contents the boundary gives it",
  from the launch memory (before the first segment) to the contents after the second launch (at the end); the
  core's generator register rides along and no core ever owes another anything. Read against a final state, the
  last boundary's contents are what the state holds: at the result buffer, what the second launch leaves in its
  result array; at an argument, the contents at launch.
-/
import proofs.«102747_j25460566130853_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final state is read for: at every buffer the program uses it holds the last boundary's contents. -/
abbrev AtEnd (c : Dev nD) (s : MemSt nD τ sig (Elt F)) : Prop :=
  ∀ b ∈ Pipeline.ucRefs τ sig, s.mem (((c : Thread nD τ)).1, b) = W4 m ρ c b

/-- The state before the first segment: the buffers at the launch memory, the generator register, nothing owed. -/
abbrev AtLaunch (c : Dev nD) : sProp 𝕄 :=
  iprop(StableHlo.held (c : Thread nD τ) (Pipeline.ucRefs τ sig) (W0 m ρ c) ∗ R c)

/-- From what the launch deals a core — its buffers at the launch memory, its semaphores at zero, owing nothing,
    its generator register — to the state before the first segment. The semaphores and the launch credit are not
    needed: no launch of this program signals another core. -/
theorem at_launch (c : Dev nD) :
    iprop((iprop(unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄))) ∗ levAts L lv)
      ⊢ |={Set.univ}=> AtLaunch m ρ c := by
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hbufs, -, Howes, -, Hprng, -⟩, -⟩
  imodintro
  isplitl [Hbufs]
  · iexact Hbufs
  isplitl [Hprng]
  · iexists _; iexact Hprng
  · iexists ∅; iexact Howes

/-- The state after the last segment, read against a final state: every buffer the program uses holds the last
    boundary's contents. -/
theorem at_end (c : Dev nD) (s' : Phys nD τ sig (Elt F)) :
    iprop(Tₙ m ρ c ∗ SI s') ⊢ |={Set.univ}=> iprop(⌜AtEnd m ρ c s'.mem⌝ ∗ SI s') := by
  iintro ⟨⟨Hbufs, -⟩, Hstate⟩
  unfold StableHlo.held
  imodintro
  iapply (pointsTo_read_all (Pipeline.ucRefs τ sig) (fun b => (((c : Thread nD τ)).1, b)) (W4 m ρ c) s')
  isplitl [Hbufs]
  · iexact Hbufs
  · iexact Hstate

/-- Owning the launch's ghost element is owning the element that accounts for the staging cells of the two launches:
    the second is the first, embedded. -/
theorem own_launch :
    (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl

/-- Nothing, once on every core, is nothing. -/
theorem emp_each : (BI.emp : sProp 𝕄) ⊢ bigSep Finset.univ (fun _ : Dev nD => (BI.emp : sProp 𝕄)) := by
  rw [BI.bigSep_emp_const]

set_option backward.isDefEq.respectTransparency.types false in
/-- Every weakly fair execution of the program ends, without a fault, with the result buffer at the contents the
    last segment boundary gives it and the eight arguments as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit (pcfgs (F := F)) adm (pdats m ρ) () cellOf_inj emb₁ defs₀ 𝒱₀ L lv m ρ main (segs m ρ)
    (fun c Q => by rw [main_run m ρ c]) ?pipes (O₀ := 0) (hL := fun _ _ => rfl) (G := fun _ => iprop(emp))
    (u₀ := initOf (Pipeline.cells cfgs cellOf_inj) (Pipeline.launchToks cfgs cellOf_inj)) (hu₀ := ?ghost)
    (T₀ := AtLaunch m ρ) (Tₙ := Tₙ m ρ) (hch := ⟨fun _ => .rfl, fun _ => .rfl, fun _ => .rfl, fun _ => .rfl, fun _ => .rfl⟩)
    (hinit := Pipeline.initEach L lv fun c => at_launch m ρ c)
    (QY := AtEnd m ρ) (hfin := at_end m ρ) (hQ := ?reads)
  case pipes =>
    -- each launch is entered once
    simp only [segs, Pipeline.Seg.pipes_host, Pipeline.Seg.pipes_region, Pipeline.Seg.pipes_nil]; decide
  case ghost =>
    -- the launch's ghost element accounts for the staging cells of the two launches; a core needs nothing else
    iintro Hown
    imodintro
    isplitl [Hown]
    · iapply (own_launch (F := F)); iexact Hown
    · iapply (emp_each (F := F)); iempintro
  case reads =>
    intro s h c
    exact ⟨h c _ (mem_uc main_v45 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c)⟩

end Cert.KernelIdeal.Run

end
-- ==== Proof.LibTransDot.lean ====
/-
  GENERAL LEMMA: a product of a matrix with the transpose of another, read at an entry, on the extended reals.

  For dimension numbers that contract both operands' second axes (an M×K matrix times the transpose of an N×K
  matrix, no batch axis), entry (r, c) of the product is the sum over k : Fin K of left (r, k) · right (c, k); a
  `tpu.matmul` into the zero accumulator is that sum.
-/
import Idealize.ShloMosaic.PureOps.Ideal.Laws
import Idealize.ShloMosaic.Lib.ValueIdx

noncomputable section

namespace Idealize.ShloMosaic.TransDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

end Idealize.ShloMosaic.TransDot

end
-- ==== Proof.DensePayload.lean ====
/-
  One dense layer of the network, read at an entry of a block of 5000 rows.

  The body of either launch loads a block `A` of averaged neighbour features, the matching block `H` of node
  features (both 5000 × 96), the two 96 × 96 weights `Wl`, `Wr` and the bias as a row `u` (1 × 96), and stores
  `A · Wlᵀ + u + H · Wrᵀ` (the first launch: its positive part). On the extended reals the change of float
  format before each product is the identity and a product into the zero accumulator is a plain sum, so entry
  (r, c) of what is stored is

      (∑ₖ A(r,k) · Wl(c,k)) + u(0,c) + ∑ₖ H(r,k) · Wr(c,k),

  and for the first launch the maximum of that with 0. Only row r of the two feature blocks is read.
-/
import proofs.«102747_j25460566130853_1_alg».proof.Proof.Gen.KernelIdeal.Skeleton
import proofs.«102747_j25460566130853_1_alg».proof.Proof.LibTransDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Idealize.ShloMosaic Idealize.ShloMosaic.ValueIdx Cert.KernelIdeal Cert.KernelIdeal.Gen

/-- Entry (r, c) of `A · Wlᵀ + u + H · Wrᵀ`: row r of `A` against row c of `Wl`, the bias at c, row r of `H`
    against row c of `Wr`. -/
def entry (A H : S5000x96.Idx → EReal) (Wl Wr : S96x96.Idx → EReal) (u : S1x96.Idx → EReal) (r : Fin 5000) (c : Fin 96) : EReal :=
  (∑ k : Fin 96, A (ix2 r k) * Wl (ix2 c k)) + u (ix2 (0 : Fin 1) c) + ∑ k : Fin 96, H (ix2 r k) * Wr (ix2 c k)

/-- The products contract the second axis of both operands: a matrix times the transpose of another. -/
theorem dims_eq : dot_S5000x96_S96x96_S5000x96_1_1_0_0_n_n = DotDims.transposedRhs 5000 96 96 := rfl

/-- What the first launch stores, at an entry: the positive part of the layer's entry. -/
theorem pay0_apply (A H : Vec Ideal S5000x96 .f32) (Wl Wr : Vec Ideal S96x96 .f32) (u : Vec Ideal S1x96 .f32)
    (r : Fin 5000) (c : Fin 96) :
    k0_pay1 (F := Ideal) A H Wl Wr u (ix2 r c) = max (entry A H Wl Wr u r c) 0 := by
  unfold k0_pay1 entry
  simp only [shapeCast_self]
  rw [maximumf_apply, addf_apply, addf_apply, broadcast_apply,
    TransDot.matmul_zero_apply _ dims_eq, TransDot.matmul_zero_apply _ dims_eq, broadcastTo_1b_ab_apply]
  simp only [truncf_apply]
  exact congrArg (max _) Ideal.ofBits_zero_f32

/-- What the second launch stores, at an entry: the layer's entry. -/
theorem pay1_apply (A H : Vec Ideal S5000x96 .f32) (Wl Wr : Vec Ideal S96x96 .f32) (u : Vec Ideal S1x96 .f32)
    (r : Fin 5000) (c : Fin 96) :
    k1_pay1 (F := Ideal) A H Wl Wr u (ix2 r c) = entry A H Wl Wr u r c := by
  unfold k1_pay1 entry
  simp only [shapeCast_self]
  rw [addf_apply, addf_apply,
    TransDot.matmul_zero_apply _ dims_eq, TransDot.matmul_zero_apply _ dims_eq, broadcastTo_1b_ab_apply]
  simp only [truncf_apply]

end Cert.KernelIdeal.Dense

end
-- ==== Proof.LayerSpec.lean ====
/-
  The dense layer of the network on whole arrays, as one function of its operands, index by index.

  For averaged neighbour features `A` and node features `H` (both 50000 × 96), weights `Wl`, `Wr` (96 × 96) and a
  bias `β` (one value per output column), the layer is `A · Wlᵀ + β + H · Wrᵀ`: entry (r, c) is

      (∑ₖ A(r,k) · Wl(c,k)) + β(c) + ∑ₖ H(r,k) · Wr(c,k),

  sums and products on the extended reals, in this grouping. `relu` is the entrywise maximum with 0.
-/
import Idealize.ShloMosaic.Lib.ValueIdx
import Idealize.ShloMosaic.PureOps.Ideal

noncomputable section

namespace Cert.Layer

open Idealize.ShloMosaic Idealize.ShloMosaic.ValueIdx

/-- Node features: one row of 96 per node. -/
abbrev Feat : Shape := ⟨2, ![50000, 96]⟩
/-- A weight: one row of 96 per output column. -/
abbrev Wt : Shape := ⟨2, ![96, 96]⟩

/-- `A · Wlᵀ + β + H · Wrᵀ`, entry by entry. -/
def layer (A H : Feat.Idx → EReal) (Wl Wr : Wt.Idx → EReal) (β : Fin 96 → EReal) : Feat.Idx → EReal :=
  fun i => (∑ k : Fin 96, A (ix2 (i 0) k) * Wl (ix2 (i 1) k)) + β (i 1) + ∑ k : Fin 96, H (ix2 (i 0) k) * Wr (ix2 (i 1) k)

/-- The entrywise positive part. -/
def relu (X : Feat.Idx → EReal) : Feat.Idx → EReal := fun i => max (X i) 0

theorem layer_apply (A H : Feat.Idx → EReal) (Wl Wr : Wt.Idx → EReal) (β : Fin 96 → EReal) (r : Fin 50000) (c : Fin 96) :
    layer A H Wl Wr β (ix2 r c)
      = (∑ k : Fin 96, A (ix2 r k) * Wl (ix2 c k)) + β c + ∑ k : Fin 96, H (ix2 r k) * Wr (ix2 c k) := rfl

theorem relu_apply (X : Feat.Idx → EReal) (i : Feat.Idx) : relu X i = max (X i) 0 := rfl

end Cert.Layer

end
-- ==== Proof.RegionArrays.lean ====
/-
  From blocks to arrays: what each launch leaves in its result array, as one function of the arrays it finds.

  Each launch runs over ten grid points. At point t it reads rows 5000·t … 5000·t + 4999 of the averaged features
  and of the node features, the two whole weights and the whole bias row, and writes back rows 5000·t … 5000·t + 4999
  of its result. Entry (p, q) of what it writes depends on row p of the two feature blocks only, that is on row
  5000·t + p of the two feature arrays: the block written at t is the layer of the whole arrays, read through rows
  5000·t … 5000·t + 4999. The ten row ranges tile the 50000 rows, so after the launch the result array is the layer of
  the arrays the launch found (the first launch: its positive part).
-/
import proofs.«102747_j25460566130853_1_alg».proof.Proof.Gen.KernelIdeal.Frame
import proofs.«102747_j25460566130853_1_alg».proof.Proof.DensePayload
import proofs.«102747_j25460566130853_1_alg».proof.Proof.LayerSpec
import Idealize.ShloMosaic.Lib.Pipeline.Value

set_option maxRecDepth 16384

noncomputable section

namespace Cert.KernelIdeal.Dense

open Idealize.ShloMosaic Idealize.ShloMosaic.TcCoe Idealize.ShloMosaic.ValueIdx Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

theorem hz : (![0, 0] : Fin 2 → Nat) = fun _ => 0 := funext fun a => by fin_cases a <;> rfl

/-! ## The first launch -/

/-- The block indices over the grid: the two feature windows and the result move down the rows with the point, the
    weights and the bias stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the averaged-feature block at point t is row 5000·t + p of the array. -/
theorem agg0_row (c : Dev nD) (t : Fin cfg0.N) (p : Fin 5000) (k : Fin 96) (r : Fin 50000) (hr : r.val = 5000 * t.val + p.val) :
    (iblk0 V c 0 t : Vec Ideal S5000x96 .f32) (ix2 p k) = (V c main_v22 : Feat.Idx → EReal) (ix2 r k) := by
  obtain ⟨e0, e1, -⟩ := idx0 t
  unfold iblk0
  rw [View.read_apply]
  show (V c main_v22 : Feat.Idx → EReal) _ = (V c main_v22 : Feat.Idx → EReal) _
  refine congrArg (V c main_v22 : Feat.Idx → EReal) (funext fun a => Fin.ext ?_)
  match a with
  | ⟨0, _⟩ => show win0_0.index t (0 : Fin 2) * 5000 + 1 * p.val = r.val; rw [e0, hr]; omega
  | ⟨1, _⟩ => show win0_0.index t (1 : Fin 2) * 96 + 1 * k.val = k.val; rw [e1]; omega

/-- Row p of the node-feature block at point t is row 5000·t + p of the array. -/
theorem feat0_row (c : Dev nD) (t : Fin cfg0.N) (p : Fin 5000) (k : Fin 96) (r : Fin 50000) (hr : r.val = 5000 * t.val + p.val) :
    (iblk0 V c 1 t : Vec Ideal S5000x96 .f32) (ix2 p k) = (V c main_arg0 : Feat.Idx → EReal) (ix2 r k) := by
  obtain ⟨-, -, e0, e1, -⟩ := idx0 t
  unfold iblk0
  rw [View.read_apply]
  show (V c main_arg0 : Feat.Idx → EReal) _ = (V c main_arg0 : Feat.Idx → EReal) _
  refine congrArg (V c main_arg0 : Feat.Idx → EReal) (funext fun a => Fin.ext ?_)
  match a with
  | ⟨0, _⟩ => show win0_1.index t (0 : Fin 2) * 5000 + 1 * p.val = r.val; rw [e0, hr]; omega
  | ⟨1, _⟩ => show win0_1.index t (1 : Fin 2) * 96 + 1 * k.val = k.val; rw [e1]; omega

/-- The left weight's block is the whole weight, at every point. -/
theorem wl0_blk (c : Dev nD) (t : Fin cfg0.N) : (iblk0 V c 2 t : Vec Ideal S96x96 .f32) = (V c main_arg2 : Wt.Idx → EReal) := by
  obtain ⟨-, -, -, -, e0, e1, -⟩ := idx0 t
  funext y
  unfold iblk0
  rw [View.read_apply]
  show (V c main_arg2 : Wt.Idx → EReal) _ = (V c main_arg2 : Wt.Idx → EReal) y
  refine congrArg (V c main_arg2 : Wt.Idx → EReal) (funext fun a => Fin.ext ?_)
  match a with
  | ⟨0, _⟩ => show win0_2.index t (0 : Fin 2) * 96 + 1 * (y 0).val = (y 0).val; rw [e0]; omega
  | ⟨1, _⟩ => show win0_2.index t (1 : Fin 2) * 96 + 1 * (y 1).val = (y 1).val; rw [e1]; omega

/-- The bias row's block is the whole row, at every point. -/
theorem bias0_blk (c : Dev nD) (t : Fin cfg0.N) : (iblk0 V c 3 t : Vec Ideal S1x96 .f32) = (V c main_v23 : S1x96.Idx → EReal) := by
  obtain ⟨-, -, -, -, -, -, e0, e1, -⟩ := idx0 t
  funext y
  unfold iblk0
  rw [View.read_apply]
  show (V c main_v23 : S1x96.Idx → EReal) _ = (V c main_v23 : S1x96.Idx → EReal) y
  refine congrArg (V c main_v23 : S1x96.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 96 + 1 * (y 1).val = (y 1).val; rw [e1]; omega

/-- The right weight's block is the whole weight, at every point. -/
theorem wr0_blk (c : Dev nD) (t : Fin cfg0.N) : (iblk0 V c 4 t : Vec Ideal S96x96 .f32) = (V c main_arg4 : Wt.Idx → EReal) := by
  obtain ⟨-, -, -, -, -, -, -, -, e0, e1, -⟩ := idx0 t
  funext y
  unfold iblk0
  rw [View.read_apply]
  show (V c main_arg4 : Wt.Idx → EReal) _ = (V c main_arg4 : Wt.Idx → EReal) y
  refine congrArg (V c main_arg4 : Wt.Idx → EReal) (funext fun a => Fin.ext ?_)
  match a with
  | ⟨0, _⟩ => show win0_4.index t (0 : Fin 2) * 96 + 1 * (y 0).val = (y 0).val; rw [e0]; omega
  | ⟨1, _⟩ => show win0_4.index t (1 : Fin 2) * 96 + 1 * (y 1).val = (y 1).val; rw [e1]; omega

/-- What the first launch's result array ends holding: the positive part of the layer of the arrays it finds. -/
abbrev result0 (c : Dev nD) : Feat.Idx → EReal :=
  relu (layer (V c main_v22) (V c main_arg0) (V c main_arg2) (V c main_arg4)
    (fun q => (V c main_v23 : S1x96.Idx → EReal) (ix2 (0 : Fin 1) q)))

/-- What point t writes back is rows 5000·t … 5000·t + 4999 of `result0`. -/
theorem flushed0_eq (c : Dev nD) (t : Fin cfg0.N) :
    (dat0 V c).flushed 5 t = ((cfg0.win 5).blk t).view.read (Elt Ideal) (result0 V c) := by
  obtain ⟨-, -, -, -, -, -, -, -, -, -, e0, e1⟩ := idx0 t
  have ht : t.val < 10 := by have h := t.isLt; have hN : cfg0.N = 10 := N_0; omega
  show (cfg0.win 5).cut (grid0.coords t) ((dat0 V c).after 5 t) = _
  rw [after0_5]
  unfold out0_5
  rw [View.canon_unit_zero hz]
  simp only [View.ld_unit_zero (S := S5000x96) hz, View.ld_unit_zero (S := S96x96) hz, View.ld_unit_zero (S := S1x96) hz]
  rw [wl0_blk, wr0_blk, bias0_blk]
  funext j
  obtain ⟨p, q, rfl⟩ : ∃ (p : Fin 5000) (q : Fin 96), j = ix2 p q := ⟨j 0, j 1, eq_ix2 j⟩
  have hr : 5000 * t.val + p.val < 50000 := by have := p.isLt; omega
  show k0_pay1 (F := Ideal) (iblk0 V c 0 t) (iblk0 V c 1 t) _ _ _ (ix2 p q) = result0 V c (((cfg0.win 5).blk t).view.emb (ix2 p q))
  have hemb : ((cfg0.win 5).blk t).view.emb (ix2 p q) = (ix2 (⟨5000 * t.val + p.val, hr⟩ : Fin 50000) q : Feat.Idx) :=
    funext fun a => Fin.ext (by
      match a with
      | ⟨0, _⟩ => show win0_5.index t (0 : Fin 2) * 5000 + 1 * p.val = 5000 * t.val + p.val; rw [e0]; omega
      | ⟨1, _⟩ => show win0_5.index t (1 : Fin 2) * 96 + 1 * q.val = q.val; rw [e1]; omega)
  rw [hemb, pay0_apply]
  show max _ 0 = max (layer _ _ _ _ _ (ix2 (⟨5000 * t.val + p.val, hr⟩ : Fin 50000) q)) 0
  rw [layer_apply]
  unfold entry
  simp only [fun k => agg0_row V c t p k ⟨5000 * t.val + p.val, hr⟩ rfl, fun k => feat0_row V c t p k ⟨5000 * t.val + p.val, hr⟩ rfl]

/-- An index of the result array is in point t's block iff each coordinate is in the block's range on its axis. -/
theorem mem_blk0 (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v24).slice (win0_5.rect t)).set ↔ _
  rw [View.set_slice_whole, Rect.mem_set_unit]
  exact Iff.rfl

/-- The ten row ranges tile the array: row r is in the block of point r / 5000. -/
theorem cover0 (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  have hN : cfg0.N = 10 := N_0
  let t : Fin cfg0.N := ⟨(i 0).val / 5000, by rw [hN]; omega⟩
  obtain ⟨-, -, -, -, -, -, -, -, -, -, e0, e1⟩ := idx0 t
  have e0' : win0_5.index t (0 : Fin 2) = (i 0).val / 5000 := e0
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; rw [e0']; omega
  | ⟨1, _⟩ => show win0_5.index t (1 : Fin 2) * 96 ≤ (i 1).val ∧ (i 1).val < win0_5.index t (1 : Fin 2) * 96 + 96; rw [e1]; omega

/-- After the first launch its result array is the positive part of the layer of the arrays the launch found. -/
theorem final0 (c : Dev nD) : (dat0 V c).arrAt 5 cfg0.N = result0 V c :=
  (dat0 V c).arrAt_eq_of_cover 5 (result0 V c) (fun t _ => flushed0_eq V c t) cover0

/-! ## The second launch -/

/-- The block indices over the grid: the two feature windows and the result move down the rows with the point, the
    weights and the bias stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the averaged-feature block at point t is row 5000·t + p of the array. -/
theorem agg1_row (c : Dev nD) (t : Fin cfg1.N) (p : Fin 5000) (k : Fin 96) (r : Fin 50000) (hr : r.val = 5000 * t.val + p.val) :
    (iblk1 V c 0 t : Vec Ideal S5000x96 .f32) (ix2 p k) = (V c main_v43 : Feat.Idx → EReal) (ix2 r k) := by
  obtain ⟨e0, e1, -⟩ := idx1 t
  unfold iblk1
  rw [View.read_apply]
  show (V c main_v43 : Feat.Idx → EReal) _ = (V c main_v43 : Feat.Idx → EReal) _
  refine congrArg (V c main_v43 : Feat.Idx → EReal) (funext fun a => Fin.ext ?_)
  match a with
  | ⟨0, _⟩ => show win1_0.index t (0 : Fin 2) * 5000 + 1 * p.val = r.val; rw [e0, hr]; omega
  | ⟨1, _⟩ => show win1_0.index t (1 : Fin 2) * 96 + 1 * k.val = k.val; rw [e1]; omega

/-- Row p of the node-feature block at point t is row 5000·t + p of the array. -/
theorem feat1_row (c : Dev nD) (t : Fin cfg1.N) (p : Fin 5000) (k : Fin 96) (r : Fin 50000) (hr : r.val = 5000 * t.val + p.val) :
    (iblk1 V c 1 t : Vec Ideal S5000x96 .f32) (ix2 p k) = (V c main_v24 : Feat.Idx → EReal) (ix2 r k) := by
  obtain ⟨-, -, e0, e1, -⟩ := idx1 t
  unfold iblk1
  rw [View.read_apply]
  show (V c main_v24 : Feat.Idx → EReal) _ = (V c main_v24 : Feat.Idx → EReal) _
  refine congrArg (V c main_v24 : Feat.Idx → EReal) (funext fun a => Fin.ext ?_)
  match a with
  | ⟨0, _⟩ => show win1_1.index t (0 : Fin 2) * 5000 + 1 * p.val = r.val; rw [e0, hr]; omega
  | ⟨1, _⟩ => show win1_1.index t (1 : Fin 2) * 96 + 1 * k.val = k.val; rw [e1]; omega

/-- The left weight's block is the whole weight, at every point. -/
theorem wl1_blk (c : Dev nD) (t : Fin cfg1.N) : (iblk1 V c 2 t : Vec Ideal S96x96 .f32) = (V c main_arg5 : Wt.Idx → EReal) := by
  obtain ⟨-, -, -, -, e0, e1, -⟩ := idx1 t
  funext y
  unfold iblk1
  rw [View.read_apply]
  show (V c main_arg5 : Wt.Idx → EReal) _ = (V c main_arg5 : Wt.Idx → EReal) y
  refine congrArg (V c main_arg5 : Wt.Idx → EReal) (funext fun a => Fin.ext ?_)
  match a with
  | ⟨0, _⟩ => show win1_2.index t (0 : Fin 2) * 96 + 1 * (y 0).val = (y 0).val; rw [e0]; omega
  | ⟨1, _⟩ => show win1_2.index t (1 : Fin 2) * 96 + 1 * (y 1).val = (y 1).val; rw [e1]; omega

/-- The bias row's block is the whole row, at every point. -/
theorem bias1_blk (c : Dev nD) (t : Fin cfg1.N) : (iblk1 V c 3 t : Vec Ideal S1x96 .f32) = (V c main_v44 : S1x96.Idx → EReal) := by
  obtain ⟨-, -, -, -, -, -, e0, e1, -⟩ := idx1 t
  funext y
  unfold iblk1
  rw [View.read_apply]
  show (V c main_v44 : S1x96.Idx → EReal) _ = (V c main_v44 : S1x96.Idx → EReal) y
  refine congrArg (V c main_v44 : S1x96.Idx → EReal) (funext fun a => Fin.ext ?_)
  match a with
  | ⟨0, _⟩ => show win1_3.index t (0 : Fin 2) * 1 + 1 * (y 0).val = (y 0).val; rw [e0]; omega
  | ⟨1, _⟩ => show win1_3.index t (1 : Fin 2) * 96 + 1 * (y 1).val = (y 1).val; rw [e1]; omega

/-- The right weight's block is the whole weight, at every point. -/
theorem wr1_blk (c : Dev nD) (t : Fin cfg1.N) : (iblk1 V c 4 t : Vec Ideal S96x96 .f32) = (V c main_arg7 : Wt.Idx → EReal) := by
  obtain ⟨-, -, -, -, -, -, -, -, e0, e1, -⟩ := idx1 t
  funext y
  unfold iblk1
  rw [View.read_apply]
  show (V c main_arg7 : Wt.Idx → EReal) _ = (V c main_arg7 : Wt.Idx → EReal) y
  refine congrArg (V c main_arg7 : Wt.Idx → EReal) (funext fun a => Fin.ext ?_)
  match a with
  | ⟨0, _⟩ => show win1_4.index t (0 : Fin 2) * 96 + 1 * (y 0).val = (y 0).val; rw [e0]; omega
  | ⟨1, _⟩ => show win1_4.index t (1 : Fin 2) * 96 + 1 * (y 1).val = (y 1).val; rw [e1]; omega

/-- What the second launch's result array ends holding: the layer of the arrays it finds. -/
abbrev result1 (c : Dev nD) : Feat.Idx → EReal :=
  layer (V c main_v43) (V c main_v24) (V c main_arg5) (V c main_arg7)
    (fun q => (V c main_v44 : S1x96.Idx → EReal) (ix2 (0 : Fin 1) q))

/-- What point t writes back is rows 5000·t … 5000·t + 4999 of `result1`. -/
theorem flushed1_eq (c : Dev nD) (t : Fin cfg1.N) :
    (dat1 V c).flushed 5 t = ((cfg1.win 5).blk t).view.read (Elt Ideal) (result1 V c) := by
  obtain ⟨-, -, -, -, -, -, -, -, -, -, e0, e1⟩ := idx1 t
  have ht : t.val < 10 := by have h := t.isLt; have hN : cfg1.N = 10 := N_1; omega
  show (cfg1.win 5).cut (grid1.coords t) ((dat1 V c).after 5 t) = _
  rw [after1_5]
  unfold out1_5
  rw [View.canon_unit_zero hz]
  simp only [View.ld_unit_zero (S := S5000x96) hz, View.ld_unit_zero (S := S96x96) hz, View.ld_unit_zero (S := S1x96) hz]
  rw [wl1_blk, wr1_blk, bias1_blk]
  funext j
  obtain ⟨p, q, rfl⟩ : ∃ (p : Fin 5000) (q : Fin 96), j = ix2 p q := ⟨j 0, j 1, eq_ix2 j⟩
  have hr : 5000 * t.val + p.val < 50000 := by have := p.isLt; omega
  show k1_pay1 (F := Ideal) (iblk1 V c 0 t) (iblk1 V c 1 t) _ _ _ (ix2 p q) = result1 V c (((cfg1.win 5).blk t).view.emb (ix2 p q))
  have hemb : ((cfg1.win 5).blk t).view.emb (ix2 p q) = (ix2 (⟨5000 * t.val + p.val, hr⟩ : Fin 50000) q : Feat.Idx) :=
    funext fun a => Fin.ext (by
      match a with
      | ⟨0, _⟩ => show win1_5.index t (0 : Fin 2) * 5000 + 1 * p.val = 5000 * t.val + p.val; rw [e0]; omega
      | ⟨1, _⟩ => show win1_5.index t (1 : Fin 2) * 96 + 1 * q.val = q.val; rw [e1]; omega)
  rw [hemb, pay1_apply]
  show _ = layer _ _ _ _ _ (ix2 (⟨5000 * t.val + p.val, hr⟩ : Fin 50000) q)
  rw [layer_apply]
  unfold entry
  simp only [fun k => agg1_row V c t p k ⟨5000 * t.val + p.val, hr⟩ rfl, fun k => feat1_row V c t p k ⟨5000 * t.val + p.val, hr⟩ rfl]

/-- An index of the result array is in point t's block iff each coordinate is in the block's range on its axis. -/
theorem mem_blk1 (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v45).slice (win1_5.rect t)).set ↔ _
  rw [View.set_slice_whole, Rect.mem_set_unit]
  exact Iff.rfl

/-- The ten row ranges tile the array: row r is in the block of point r / 5000. -/
theorem cover1 (i : S50000x96.Idx) : ∃ t : Fin cfg1.N, (cfg1.win 5).flush t = true ∧ i ∈ ((cfg1.win 5).blk t).view.set := by
  have hi0 : (i 0).val < 50000 := (i 0).isLt
  have hi1 : (i 1).val < 96 := (i 1).isLt
  have hN : cfg1.N = 10 := N_1
  let t : Fin cfg1.N := ⟨(i 0).val / 5000, by rw [hN]; omega⟩
  obtain ⟨-, -, -, -, -, -, -, -, -, -, e0, e1⟩ := idx1 t
  have e0' : win1_5.index t (0 : Fin 2) = (i 0).val / 5000 := e0
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e0']; omega
  | ⟨1, _⟩ => show win1_5.index t (1 : Fin 2) * 96 ≤ (i 1).val ∧ (i 1).val < win1_5.index t (1 : Fin 2) * 96 + 96; rw [e1]; omega

/-- After the second launch its result array is the layer of the arrays the launch found. -/
theorem final1 (c : Dev nD) : (dat1 V c).arrAt 5 cfg1.N = result1 V c :=
  (dat1 V c).arrAt_eq_of_cover 5 (result1 V c) (fun t _ => flushed1_eq V c t) cover1

end Cert.KernelIdeal.Dense

end
-- ==== Proof.RefLayers.lean ====
/-
  The reference, read as two layers over one shared aggregation.

  The host spells a layer `Y · Wlᵀ + b + X · Wrᵀ` as two `dot_general`s against transposed weights and a bias
  broadcast first to a row and then down the rows. At an entry (r, c) the first product reads row r of `Y` against
  column c of the transposed `Wl`, which is row c of `Wl`; the bias reads its entry c; so the host's layer is the
  layer of the specification, entry by entry, with nothing rearranged.

  The neighbourhood average (gather the source rows, add them into the destination rows, divide by the clipped
  in-degree) is applied twice, to the node features and to the first layer's output, with the same edge list. It is
  carried here as ONE function of a feature array and the edge list and never opened: the second application is the
  first one at another feature array.
-/
import proofs.«102747_j25460566130853_1_alg».proof.Proof.Gen.ReferenceIdeal.Read
import proofs.«102747_j25460566130853_1_alg».proof.Proof.LayerSpec

noncomputable section

namespace Cert.ReferenceIdeal.Layers

open Idealize.ShloMosaic Idealize.ShloMosaic.ValueIdx Cert.ReferenceIdeal Cert.ReferenceIdeal.Gen Cert.ReferenceIdeal.Read Cert.Layer

/-- The neighbourhood average of a feature array along an edge list: the shared chain of host operations, as one
    function (the reference's first aggregation, at any feature array). -/
abbrev meanAgg (X : (⟨S50000x96, .f32⟩ : BufTy).Contents (Elt Ideal)) (E : (⟨S2x800000, .i32⟩ : BufTy).Contents (Elt Ideal)) : (⟨S50000x96, .f32⟩ : BufTy).Contents (Elt Ideal) := val_main_v22 (F := Ideal) X E

/-- The host's spelling of a layer: two products against transposed weights and a twice-broadcast bias. -/
def hostLayer (Y X : (⟨S50000x96, .f32⟩ : BufTy).Contents (Elt Ideal)) (Wl : (⟨S96x96, .f32⟩ : BufTy).Contents (Elt Ideal)) (b : (⟨S96, .f32⟩ : BufTy).Contents (Elt Ideal)) (Wr : (⟨S96x96, .f32⟩ : BufTy).Contents (Elt Ideal)) : (⟨S50000x96, .f32⟩ : BufTy).Contents (Elt Ideal) :=
  addf (F := Ideal) (s := S50000x96) (φ := .f32) (addf (F := Ideal) (s := S50000x96) (φ := .f32) (val_main_v29 (F := Ideal) Y Wl) (val_main_v26 (F := Ideal) b))
    (val_main_v29 (F := Ideal) X Wr)

/-- The host's layer is the specification's, entry by entry. -/
theorem hostLayer_eq (Y X : (⟨S50000x96, .f32⟩ : BufTy).Contents (Elt Ideal)) (Wl : (⟨S96x96, .f32⟩ : BufTy).Contents (Elt Ideal)) (b : (⟨S96, .f32⟩ : BufTy).Contents (Elt Ideal)) (Wr : (⟨S96x96, .f32⟩ : BufTy).Contents (Elt Ideal)) :
    hostLayer Y X Wl b Wr = layer Y X Wl Wr (fun q => b (ix1 q)) := by
  funext i
  obtain ⟨r, c, rfl⟩ : ∃ (r : Fin 50000) (c : Fin 96), i = ix2 r c := ⟨i 0, i 1, eq_ix2 i⟩
  have el : ∀ k : Fin 96, lidx_main_v29 (ix2 r c) k = ix2 r k := fun k => funext fun a => Fin.ext (by
    match a with
    | ⟨0, _⟩ => rfl
    | ⟨1, _⟩ => rfl)
  have er : ∀ k : Fin 96, idx_main_v28 (ridx_main_v29 (ix2 r c) k) = ix2 c k := fun k => funext fun a => Fin.ext (by
    match a with
    | ⟨0, _⟩ => rfl
    | ⟨1, _⟩ => rfl)
  have eb : idx_main_v25 (idx_main_v26 (ix2 r c)) = ix1 c := funext fun a => Fin.ext (by
    match a with
    | ⟨0, _⟩ => rfl)
  unfold hostLayer
  rw [addf_apply, addf_apply, val_main_v29_apply, val_main_v29_apply, val_main_v26_apply, val_main_v25_apply, layer_apply]
  simp only [val_main_v28_apply, el, er, eb]

/-- The first layer: the positive part of the layer of the averaged node features and the node features. -/
theorem first_layer (x0 : (⟨S50000x96, .f32⟩ : BufTy).Contents (Elt Ideal)) (x1 : (⟨S2x800000, .i32⟩ : BufTy).Contents (Elt Ideal)) (x2 : (⟨S96x96, .f32⟩ : BufTy).Contents (Elt Ideal)) (x3 : (⟨S96, .f32⟩ : BufTy).Contents (Elt Ideal)) (x4 : (⟨S96x96, .f32⟩ : BufTy).Contents (Elt Ideal)) :
    val_main_v31 (F := Ideal) x0 x1 x2 x3 x4 = relu (layer (meanAgg x0 x1) x0 x2 x4 (fun q => x3 (ix1 q))) := by
  have h30 : val_main_v30 (F := Ideal) x0 x1 x2 x3 x4 = layer (meanAgg x0 x1) x0 x2 x4 (fun q => x3 (ix1 q)) :=
    (show val_main_v30 (F := Ideal) x0 x1 x2 x3 x4 = hostLayer (meanAgg x0 x1) x0 x2 x3 x4 from rfl).trans (hostLayer_eq _ _ _ _ _)
  funext i
  rw [val_main_v31_apply, h30, val_main_call0_v0_apply, val_main_call0_cst_apply]
  exact congrArg (max _) Ideal.ofBits_zero_f32

/-- The second aggregation is the first one, at the first layer's output. -/
theorem second_agg (x0 : (⟨S50000x96, .f32⟩ : BufTy).Contents (Elt Ideal)) (x1 : (⟨S2x800000, .i32⟩ : BufTy).Contents (Elt Ideal)) (x2 : (⟨S96x96, .f32⟩ : BufTy).Contents (Elt Ideal)) (x3 : (⟨S96, .f32⟩ : BufTy).Contents (Elt Ideal)) (x4 : (⟨S96x96, .f32⟩ : BufTy).Contents (Elt Ideal)) :
    val_main_v50 (F := Ideal) x0 x1 x2 x3 x4 = meanAgg (val_main_v31 (F := Ideal) x0 x1 x2 x3 x4) x1 := by
  simp only [val_main_v4, val_main_c, val_main_v5, val_main_v6, val_main_c_0, val_main_v7, val_main_v8, val_main_v9, val_main_v10, val_main_v11, val_main_cst, val_main_v12, val_main_v13, val_main_v14, val_main_cst_1, val_main_v15, val_main_cst_2, val_main_v16, val_main_v17, val_main_v18, val_main_cst_3, val_main_v19, val_main_v20, val_main_v21, val_main_v22, val_main_v32, val_main_c_4, val_main_v33, val_main_v34, val_main_c_5, val_main_v35, val_main_v36, val_main_v37, val_main_v38, val_main_v39, val_main_cst_6, val_main_v40, val_main_v41, val_main_v42, val_main_cst_7, val_main_v43, val_main_cst_8, val_main_v44, val_main_v45, val_main_v46, val_main_cst_9, val_main_v47, val_main_v48, val_main_v49, val_main_v50]

/-- The whole network as one function of the eight arguments: a layer over the average of the first layer's output. -/
def net (x0 : (⟨S50000x96, .f32⟩ : BufTy).Contents (Elt Ideal)) (x1 : (⟨S2x800000, .i32⟩ : BufTy).Contents (Elt Ideal)) (x2 : (⟨S96x96, .f32⟩ : BufTy).Contents (Elt Ideal)) (x3 : (⟨S96, .f32⟩ : BufTy).Contents (Elt Ideal)) (x4 x5 : (⟨S96x96, .f32⟩ : BufTy).Contents (Elt Ideal)) (x6 : (⟨S96, .f32⟩ : BufTy).Contents (Elt Ideal)) (x7 : (⟨S96x96, .f32⟩ : BufTy).Contents (Elt Ideal)) : (⟨S50000x96, .f32⟩ : BufTy).Contents (Elt Ideal) :=
  layer (meanAgg (relu (layer (meanAgg x0 x1) x0 x2 x4 (fun q => x3 (ix1 q)))) x1)
    (relu (layer (meanAgg x0 x1) x0 x2 x4 (fun q => x3 (ix1 q)))) x5 x7 (fun q => x6 (ix1 q))

/-- The reference computes `net`. -/
theorem reference_eq (x0 : (⟨S50000x96, .f32⟩ : BufTy).Contents (Elt Ideal)) (x1 : (⟨S2x800000, .i32⟩ : BufTy).Contents (Elt Ideal)) (x2 : (⟨S96x96, .f32⟩ : BufTy).Contents (Elt Ideal)) (x3 : (⟨S96, .f32⟩ : BufTy).Contents (Elt Ideal)) (x4 x5 : (⟨S96x96, .f32⟩ : BufTy).Contents (Elt Ideal)) (x6 : (⟨S96, .f32⟩ : BufTy).Contents (Elt Ideal)) (x7 : (⟨S96x96, .f32⟩ : BufTy).Contents (Elt Ideal)) :
    val_main_v58 (F := Ideal) x0 x1 x2 x3 x4 x5 x6 x7 = net x0 x1 x2 x3 x4 x5 x6 x7 := by
  have h : val_main_v58 (F := Ideal) x0 x1 x2 x3 x4 x5 x6 x7
      = hostLayer (val_main_v50 (F := Ideal) x0 x1 x2 x3 x4) (val_main_v31 (F := Ideal) x0 x1 x2 x3 x4) x5 x6 x7 := rfl
  rw [h, hostLayer_eq, second_agg, first_layer]
  rfl

end Cert.ReferenceIdeal.Layers

end
-- ==== Proof.FirstLaunch.lean ====
/-
  What the kernel program's result buffer holds at the end, as one function of the eight arguments.

  Walking back from the end: the result buffer holds what the second launch leaves, the layer of the arrays that
  launch finds. Those are: the second weights and bias (arguments, which nothing writes); the first launch's result
  (which the host operations between the launches do not write); and its neighbourhood average, which the host
  operations between the launches compute from it and from the two columns of the edge list the first stretch of host
  operations extracted. The first launch's result is in turn the positive part of the layer of the arrays the first
  launch finds: the first weights and bias, the node features, and their neighbourhood average, computed by the first
  stretch of host operations. The neighbourhood average is the same chain of host operations both times and the same
  as the reference's: it is carried as one function and never opened.
-/
import proofs.«102747_j25460566130853_1_alg».proof.Proof.Gen.KernelIdeal.Frame
import proofs.«102747_j25460566130853_1_alg».proof.Proof.RegionArrays
import proofs.«102747_j25460566130853_1_alg».proof.Proof.RefLayers
import Idealize.ShloMosaic.Lib.StableHlo.Run
import Idealize.ShloMosaic.Lib.ValueLayout

set_option maxRecDepth 16384

noncomputable section

namespace Cert.KernelIdeal.Net

open Idealize.ShloMosaic Idealize.ShloMosaic.TcCoe Idealize.SL.Sem Idealize.ShloMosaic.StableHlo Idealize.ShloMosaic.ValueIdx
open Cert.KernelIdeal Cert.KernelIdeal.Gen Cert.KernelIdeal.Dense Cert.Layer
open Cert.ReferenceIdeal.Layers (meanAgg net)

variable (m : (ℓ : Loc nD τ sig) → Buf (Elt Ideal) ℓ) (ρ : Dev nD → PrngReg)

/-! ## The arguments as launched -/

abbrev X (c : Dev nD) : Feat.Idx → EReal := m ((c : Thread nD τ).loc main_arg0)
abbrev E (c : Dev nD) : S2x800000.Idx → BitVec 32 := m ((c : Thread nD τ).loc main_arg1)
abbrev Wl1 (c : Dev nD) : Wt.Idx → EReal := m ((c : Thread nD τ).loc main_arg2)
abbrev b1 (c : Dev nD) : S96.Idx → EReal := m ((c : Thread nD τ).loc main_arg3)
abbrev Wr1 (c : Dev nD) : Wt.Idx → EReal := m ((c : Thread nD τ).loc main_arg4)
abbrev Wl2 (c : Dev nD) : Wt.Idx → EReal := m ((c : Thread nD τ).loc main_arg5)
abbrev b2 (c : Dev nD) : S96.Idx → EReal := m ((c : Thread nD τ).loc main_arg6)
abbrev Wr2 (c : Dev nD) : Wt.Idx → EReal := m ((c : Thread nD τ).loc main_arg7)

/-- The first layer's output: the positive part of the layer of the averaged node features and the node features. -/
def hidden (c : Dev nD) : Feat.Idx → EReal :=
  relu (layer (meanAgg (X m c) (E m c)) (X m c) (Wl1 m c) (Wr1 m c) (fun q => b1 m c (ix1 q)))

/-! ## What the first launch finds -/

set_option maxHeartbeats 2000000 in
/-- The averaged node features: the shared aggregation of the node features along the edge list. -/
theorem found0_agg (c : Dev nD) : (V1 m ρ c main_v22 : Feat.Idx → EReal) = meanAgg (X m c) (E m c) := by
  show StableHlo.after hostOps0 (W0 m ρ c) (Proc.devRef .tc main_v22) = _
  after_results
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_c, Cert.ReferenceIdeal.Read.val_main_v5, Cert.ReferenceIdeal.Read.val_main_v6, Cert.ReferenceIdeal.Read.val_main_c_0, Cert.ReferenceIdeal.Read.val_main_v7, Cert.ReferenceIdeal.Read.val_main_v8, Cert.ReferenceIdeal.Read.val_main_v9, Cert.ReferenceIdeal.Read.val_main_v10, Cert.ReferenceIdeal.Read.val_main_v11, Cert.ReferenceIdeal.Read.val_main_cst, Cert.ReferenceIdeal.Read.val_main_v12, Cert.ReferenceIdeal.Read.val_main_v13, Cert.ReferenceIdeal.Read.val_main_v14, Cert.ReferenceIdeal.Read.val_main_cst_1, Cert.ReferenceIdeal.Read.val_main_v15, Cert.ReferenceIdeal.Read.val_main_cst_2, Cert.ReferenceIdeal.Read.val_main_v16, Cert.ReferenceIdeal.Read.val_main_v17, Cert.ReferenceIdeal.Read.val_main_v18, Cert.ReferenceIdeal.Read.val_main_cst_3, Cert.ReferenceIdeal.Read.val_main_v19, Cert.ReferenceIdeal.Read.val_main_v20, Cert.ReferenceIdeal.Read.val_main_v21, Cert.ReferenceIdeal.Read.val_main_v22]
  rfl

/-- The node features, the two weights: arguments, which the first stretch of host operations does not write. -/
theorem found0_feat (c : Dev nD) : (V1 m ρ c main_arg0 : Feat.Idx → EReal) = X m c := by
  show StableHlo.after hostOps0 (W0 m ρ c) (Proc.devRef .tc main_arg0) = _
  after_results
theorem found0_wl (c : Dev nD) : (V1 m ρ c main_arg2 : Wt.Idx → EReal) = Wl1 m c := by
  show StableHlo.after hostOps0 (W0 m ρ c) (Proc.devRef .tc main_arg2) = _
  after_results
theorem found0_wr (c : Dev nD) : (V1 m ρ c main_arg4 : Wt.Idx → EReal) = Wr1 m c := by
  show StableHlo.after hostOps0 (W0 m ρ c) (Proc.devRef .tc main_arg4) = _
  after_results

/-- The bias as the launch finds it: the bias vector cast to a row; its entry (0, q) is the vector's entry q. -/
theorem found0_bias (c : Dev nD) :
    (fun q : Fin 96 => (V1 m ρ c main_v23 : S1x96.Idx → EReal) (ix2 (0 : Fin 1) q)) = fun q => b1 m c (ix1 q) := by
  have e : (V1 m ρ c main_v23 : S1x96.Idx → EReal) = shapeCast S1x96 (b1 m c) shapeCasts_S96_S1x96 := by
    show StableHlo.after hostOps0 (W0 m ρ c) (Proc.devRef .tc main_v23) = _
    after_results
    rfl
  funext q
  rw [e]
  exact shapeCast_a_1a_apply (b1 m c) shapeCasts_S96_S1x96 0 q

/-- After the first launch its result array holds the first layer's output. -/
theorem after_first (c : Dev nD) : (dat0 (V1 m ρ) c).arrAt 5 cfg0.N = hidden m c := by
  rw [final0 (V1 m ρ) c]
  show relu (layer (V1 m ρ c main_v22) (V1 m ρ c main_arg0) (V1 m ρ c main_arg2) (V1 m ρ c main_arg4)
    (fun q => (V1 m ρ c main_v23 : S1x96.Idx → EReal) (ix2 (0 : Fin 1) q))) = _
  rw [found0_agg, found0_feat, found0_wl, found0_wr, found0_bias]
  rfl

end Cert.KernelIdeal.Net

end
-- ==== Proof.SecondLaunch.lean ====
/-
  What the second launch finds, and so what the program's result buffer holds at the end.

  Between the launches the host averages the first layer's output along the same edge list: it reads the two index
  columns the first stretch of host operations extracted from the edge list (nothing since has written them) and the
  first launch's result array. The second launch then finds that average, the first launch's result itself, and the
  second weights and bias, all arguments nothing has written. Its result array, which is the program's result, ends
  at the layer of those: the whole network as one function of the eight arguments.
-/
import proofs.«102747_j25460566130853_1_alg».proof.Proof.FirstLaunch

set_option maxRecDepth 16384

noncomputable section

namespace Cert.KernelIdeal.Net

open Idealize.ShloMosaic Idealize.ShloMosaic.TcCoe Idealize.SL.Sem Idealize.ShloMosaic.StableHlo Idealize.ShloMosaic.ValueIdx
open Cert.KernelIdeal Cert.KernelIdeal.Gen Cert.KernelIdeal.Dense Cert.Layer
open Cert.ReferenceIdeal.Layers (meanAgg net)

variable (m : (ℓ : Loc nD τ sig) → Buf (Elt Ideal) ℓ) (ρ : Dev nD → PrngReg)

/-! ## What outlives the first launch -/

/-- The column of source nodes: extracted from the edge list before the first launch, not written since. -/
theorem src_col (c : Dev nD) :
    W2 m ρ c (Proc.devRef .tc main_v1) = Cert.ReferenceIdeal.Read.val_main_v1 (F := Ideal) (E m c) := by
  refine (W2_of_ne m ρ c main_v1 (by decide)).trans ?_
  show StableHlo.after hostOps0 (W0 m ρ c) (Proc.devRef .tc main_v1) = _
  after_results
  simp only [Cert.ReferenceIdeal.Read.val_main_v0, Cert.ReferenceIdeal.Read.val_main_v1]
  rfl

/-- The column of destination nodes, likewise. -/
theorem dst_col (c : Dev nD) :
    W2 m ρ c (Proc.devRef .tc main_v3) = Cert.ReferenceIdeal.Read.val_main_v3 (F := Ideal) (E m c) := by
  refine (W2_of_ne m ρ c main_v3 (by decide)).trans ?_
  show StableHlo.after hostOps0 (W0 m ρ c) (Proc.devRef .tc main_v3) = _
  after_results
  simp only [Cert.ReferenceIdeal.Read.val_main_v2, Cert.ReferenceIdeal.Read.val_main_v3]
  rfl

/-- The first launch's result array, as the first launch left it: the first layer's output. -/
theorem mid_feat (c : Dev nD) : W2 m ρ c (Proc.devRef .tc main_v24) = hidden m c :=
  (W2_arr m ρ c 5).trans (after_first m ρ c)

/-- An argument no launch or host operation has written still holds its launch contents after the first launch. -/
theorem mid_arg5 (c : Dev nD) : W2 m ρ c (Proc.devRef .tc main_arg5) = Wl2 m c := by
  refine (W2_of_ne m ρ c main_arg5 (by decide)).trans ?_
  show StableHlo.after hostOps0 (W0 m ρ c) (Proc.devRef .tc main_arg5) = _
  after_results
theorem mid_arg6 (c : Dev nD) : W2 m ρ c (Proc.devRef .tc main_arg6) = b2 m c := by
  refine (W2_of_ne m ρ c main_arg6 (by decide)).trans ?_
  show StableHlo.after hostOps0 (W0 m ρ c) (Proc.devRef .tc main_arg6) = _
  after_results
theorem mid_arg7 (c : Dev nD) : W2 m ρ c (Proc.devRef .tc main_arg7) = Wr2 m c := by
  refine (W2_of_ne m ρ c main_arg7 (by decide)).trans ?_
  show StableHlo.after hostOps0 (W0 m ρ c) (Proc.devRef .tc main_arg7) = _
  after_results

/-! ## What the second launch finds -/

/-- The first layer's output: the host operations between the launches do not write it. -/
theorem found1_feat (c : Dev nD) : (V3 m ρ c main_v24 : Feat.Idx → EReal) = hidden m c := by
  have e : V3 m ρ c main_v24 = W2 m ρ c (Proc.devRef .tc main_v24) := by
    show StableHlo.after hostOps1 (W2 m ρ c) (Proc.devRef .tc main_v24) = _
    after_results
  exact e.trans (mid_feat m ρ c)

set_option maxHeartbeats 2000000 in
/-- Its average: the shared aggregation of the first layer's output along the same edge list. -/
theorem found1_agg (c : Dev nD) : (V3 m ρ c main_v43 : Feat.Idx → EReal) = meanAgg (hidden m c) (E m c) := by
  show StableHlo.after hostOps1 (W2 m ρ c) (Proc.devRef .tc main_v43) = _
  after_results
  rw [src_col m ρ c, dst_col m ρ c, mid_feat m ρ c]
  simp only [Cert.ReferenceIdeal.Read.val_main_v4, Cert.ReferenceIdeal.Read.val_main_c, Cert.ReferenceIdeal.Read.val_main_v5, Cert.ReferenceIdeal.Read.val_main_v6, Cert.ReferenceIdeal.Read.val_main_c_0, Cert.ReferenceIdeal.Read.val_main_v7, Cert.ReferenceIdeal.Read.val_main_v8, Cert.ReferenceIdeal.Read.val_main_v9, Cert.ReferenceIdeal.Read.val_main_v10, Cert.ReferenceIdeal.Read.val_main_v11, Cert.ReferenceIdeal.Read.val_main_cst, Cert.ReferenceIdeal.Read.val_main_v12, Cert.ReferenceIdeal.Read.val_main_v13, Cert.ReferenceIdeal.Read.val_main_v14, Cert.ReferenceIdeal.Read.val_main_cst_1, Cert.ReferenceIdeal.Read.val_main_v15, Cert.ReferenceIdeal.Read.val_main_cst_2, Cert.ReferenceIdeal.Read.val_main_v16, Cert.ReferenceIdeal.Read.val_main_v17, Cert.ReferenceIdeal.Read.val_main_v18, Cert.ReferenceIdeal.Read.val_main_cst_3, Cert.ReferenceIdeal.Read.val_main_v19, Cert.ReferenceIdeal.Read.val_main_v20, Cert.ReferenceIdeal.Read.val_main_v21, Cert.ReferenceIdeal.Read.val_main_v22]
  rfl

/-- The second weights: arguments nothing has written. -/
theorem found1_wl (c : Dev nD) : (V3 m ρ c main_arg5 : Wt.Idx → EReal) = Wl2 m c := by
  have e : V3 m ρ c main_arg5 = W2 m ρ c (Proc.devRef .tc main_arg5) := by
    show StableHlo.after hostOps1 (W2 m ρ c) (Proc.devRef .tc main_arg5) = _
    after_results
  exact e.trans (mid_arg5 m ρ c)
theorem found1_wr (c : Dev nD) : (V3 m ρ c main_arg7 : Wt.Idx → EReal) = Wr2 m c := by
  have e : V3 m ρ c main_arg7 = W2 m ρ c (Proc.devRef .tc main_arg7) := by
    show StableHlo.after hostOps1 (W2 m ρ c) (Proc.devRef .tc main_arg7) = _
    after_results
  exact e.trans (mid_arg7 m ρ c)

/-- The second bias as the launch finds it: the bias vector cast to a row; its entry (0, q) is the vector's entry q. -/
theorem found1_bias (c : Dev nD) :
    (fun q : Fin 96 => (V3 m ρ c main_v44 : S1x96.Idx → EReal) (ix2 (0 : Fin 1) q)) = fun q => b2 m c (ix1 q) := by
  have e : (V3 m ρ c main_v44 : S1x96.Idx → EReal)
      = shapeCast S1x96 (W2 m ρ c (Proc.devRef .tc main_arg6)) shapeCasts_S96_S1x96 := by
    show StableHlo.after hostOps1 (W2 m ρ c) (Proc.devRef .tc main_v44) = _
    after_results
    rfl
  funext q
  rw [e, mid_arg6 m ρ c]
  exact shapeCast_a_1a_apply (b2 m c) shapeCasts_S96_S1x96 0 q

/-! ## The result -/

/-- At the end the result buffer holds the network of the eight arguments. -/
theorem result_eq (c : Dev nD) :
    W4 m ρ c (Proc.devRef .tc main_v45)
      = net (X m c) (E m c) (Wl1 m c) (b1 m c) (Wr1 m c) (Wl2 m c) (b2 m c) (Wr2 m c) := by
  refine (W4_arr m ρ c 5).trans ((final1 (V3 m ρ) c).trans ?_)
  show layer (V3 m ρ c main_v43) (V3 m ρ c main_v24) (V3 m ρ c main_arg5) (V3 m ρ c main_arg7)
    (fun q => (V3 m ρ c main_v44 : S1x96.Idx → EReal) (ix2 (0 : Fin 1) q)) = _
  rw [found1_agg, found1_feat, found1_wl, found1_wr, found1_bias]
  rfl

end Cert.KernelIdeal.Net

end
-- ==== Proof.lean ====
/-
  A two-layer neighbourhood-averaging network on a graph of 50000 nodes and 800000 edges, 96 features per node:

      H = max(mean(X) · Wl1ᵀ + b1 + X · Wr1ᵀ, 0),      result = mean(H) · Wl2ᵀ + b2 + H · Wr2ᵀ,

  where mean(·) gathers each edge's source row, adds it into the edge's destination row and divides each row by its
  in-degree clipped below at 1. The kernel program computes each dense layer in a launch over ten blocks of 5000 rows
  (two products against the weights' rows into zero accumulators, after a change of float format that is the identity
  on the extended reals) and leaves the averaging to the host; the reference computes everything on the host, the
  products against transposed weights.

  On the extended reals the two are the same function of the eight arguments, with nothing rearranged: an entry of
  either layer is the same two sums of the same products in the same grouping, the blocks tile the rows, and the
  averaging is the same chain of host operations in both programs, carried as one function and never opened. No law is
  used that fails at an infinity, so the finiteness of the inputs is not used.

  The word-level kernel's and the idealized kernel's frames are the generated ones; the reference's frame is its
  generated run with the result dropped; the idealization rewrote no operation.
-/
import proofs.«102747_j25460566130853_1_alg».proof.Defs
import proofs.«102747_j25460566130853_1_alg».proof.Proof.Gen.Kernel
import proofs.«102747_j25460566130853_1_alg».proof.Proof.Gen.Kernel.Skeleton
import proofs.«102747_j25460566130853_1_alg».proof.Proof.Gen.Kernel.Launch
import proofs.«102747_j25460566130853_1_alg».proof.Proof.Gen.Kernel.Points
import proofs.«102747_j25460566130853_1_alg».proof.Proof.Gen.Kernel.Frame
import proofs.«102747_j25460566130853_1_alg».proof.Proof.Gen.KernelIdeal
import proofs.«102747_j25460566130853_1_alg».proof.Proof.Gen.KernelIdeal.Skeleton
import proofs.«102747_j25460566130853_1_alg».proof.Proof.Gen.KernelIdeal.Launch
import proofs.«102747_j25460566130853_1_alg».proof.Proof.Gen.KernelIdeal.Points
import proofs.«102747_j25460566130853_1_alg».proof.Proof.Gen.KernelIdeal.Frame
import proofs.«102747_j25460566130853_1_alg».proof.Proof.Gen.ReferenceIdeal
import proofs.«102747_j25460566130853_1_alg».proof.Proof.Gen.ReferenceIdeal.Run
import proofs.«102747_j25460566130853_1_alg».proof.Proof.Gen.ReferenceIdeal.Read
import proofs.«102747_j25460566130853_1_alg».proof.Proof.Gen.Pre_finite_inputs
import proofs.«102747_j25460566130853_1_alg».proof.Proof.KernelRun
import proofs.«102747_j25460566130853_1_alg».proof.Proof.SecondLaunch
import proofs.«102747_j25460566130853_1_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference runs, and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network of the arguments in their result
    buffers: the kernel program by its run read back through the two launches, the reference by its run read as two
    layers over the shared averaging. -/
theorem algebraic : Cert.algebraic_KernelIdeal_ReferenceIdeal := by
  intro m ρ m' ρ' _ hagree
  refine ⟨fun c => Cert.ReferenceIdeal.Layers.net (Cert.KernelIdeal.Net.X m c) (Cert.KernelIdeal.Net.E m c)
      (Cert.KernelIdeal.Net.Wl1 m c) (Cert.KernelIdeal.Net.b1 m c) (Cert.KernelIdeal.Net.Wr1 m c)
      (Cert.KernelIdeal.Net.Wl2 m c) (Cert.KernelIdeal.Net.b2 m c) (Cert.KernelIdeal.Net.Wr2 m c), ?_, ?_⟩
  · exact (θ_run Cert.KernelIdeal.defs _ _).mono
      (fun _ h c => ⟨(h c).1.trans (Cert.KernelIdeal.Net.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, Cert.ReferenceIdeal.Layers.reference_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
